-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x1 .f32) (main_arg9 : FVec F S1 .f32) (main_arg10 : FVec F S128x1 .f32) (main_arg11 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x1 : Shape := ⟨2, ![1, 1]⟩
abbrev S5000x1 : Shape := ⟨2, ![5000, 1]⟩

abbrev nBuf : Space → Nat
  | .hbm => 75
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S1x1, .f32⟩
  | .hbm, ⟨72, _⟩ => ⟨S1x1, .f32⟩
  | .hbm, ⟨73, _⟩ => ⟨S100000x1, .f32⟩
  | .hbm, ⟨74, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x1, .f32⟩
  | .local _ .vmem, ⟨17, _⟩ => ⟨S1x1, .f32⟩
  | .local _ .vmem, ⟨18, _⟩ => ⟨S128x1, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45_0 : Ref sig .tc := ⟨.hbm, 73, rfl⟩
abbrev main_v45_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S100000x1.size a
  hwx1_9 : ∀ i : grid1.Coords, EltTy.bits .f32 = 32 ∨ (Rect.block (s := S100000x1) S5000x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S100000x1.size a
  hwx1_10 : ∀ i : grid1.Coords, EltTy.bits .f32 = 32 ∨ (Rect.block (s := S100000x1) S5000x1.size (cc1_transform_10 i) (hinb1_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45_0) S5000x1.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v45_1) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S1x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S_, .f32⟩
  | .hbm, ⟨100, _⟩ => ⟨S100000x1, .f32⟩
  | .hbm, ⟨101, _⟩ => ⟨S100000x1, .f32⟩
  | .hbm, ⟨102, _⟩ => ⟨S100000x1, .f32⟩
  | .hbm, ⟨103, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_call2_v0 : Ref sig .tc := ⟨.hbm, 71, rfl⟩
abbrev main_call2_v1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_cst : Ref sig .tc := ⟨.hbm, 83, rfl⟩
abbrev main_call3_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The mathematics of the claim, free of either program.

  A graph of 100000 nodes carries 128 features per node.  One layer takes the mean `A` of each node's
  in-neighbours' features (computed on the host, by gather, scatter-add and a division by the clipped in-degree)
  and the node's own features `X`, and returns, at node `r` and output feature `j`,

      max (∑ₖ A r k · Wl k j + ∑ₖ X r k · Wr k j + b j) 0 .

  Two such layers are followed by two linear heads on the 128 hidden features of a node: a prediction
  `p r = ∑ₖ H r k · Wp k + bp` and a gate `g r = logistic (∑ₖ H r k · Wd k + bd)`; the results are `p − g` and
  `p + g`.  Everything is over the extended reals; the only law used between the two programs is that addition
  there is commutative and associative, which holds at the infinities too.
-/
import Idealize.ShloMosaic.PureOps.Ideal
import Idealize.ShloMosaic.Lib.ValueIdx

noncomputable section

namespace Cert.Spec

open Idealize.ShloMosaic Idealize.ShloMosaic.ValueIdx
open scoped BigOperators

/-- Node features: 100000 nodes by 128 features. -/
abbrev Feat : Shape := ⟨2, ![100000, 128]⟩
/-- A layer's weight matrix. -/
abbrev Mat : Shape := ⟨2, ![128, 128]⟩
/-- A head's weight column. -/
abbrev Col : Shape := ⟨2, ![128, 1]⟩
/-- One number per node. -/
abbrev PerNode : Shape := ⟨2, ![100000, 1]⟩

/-- The zero every rectifier compares with, kept as the word both programs print. -/
abbrev zero : EReal := Ideal.ofBits .f32 0x00000000#32

/-- Entry `(r, j)` of the product of a feature array with a weight matrix. -/
def rowDot (A : Feat.Idx → EReal) (W : Mat.Idx → EReal) (r : Fin 100000) (j : Fin 128) : EReal :=
  ∑ k : Fin 128, A (ix2 r k) * W (ix2 k j)

/-- One layer: neighbours' mean through `Wl`, the node itself through `Wr`, the bias, the rectifier. -/
def layer (A X : Feat.Idx → EReal) (Wl : Mat.Idx → EReal) (b : Fin 128 → EReal) (Wr : Mat.Idx → EReal) :
    Feat.Idx → EReal :=
  fun i => max ((rowDot A Wl (i 0) (i 1) + rowDot X Wr (i 0) (i 1)) + b (i 1)) zero

/-- The layer with the bias added before the node's own term: the same number, since addition of extended
    reals is commutative and associative. -/
theorem layer_bias_first (A X : Feat.Idx → EReal) (Wl : Mat.Idx → EReal) (b : Fin 128 → EReal) (Wr : Mat.Idx → EReal)
    (i : Feat.Idx) :
    max ((rowDot A Wl (i 0) (i 1) + b (i 1)) + rowDot X Wr (i 0) (i 1)) zero = layer A X Wl b Wr i := by
  unfold layer
  rw [add_right_comm]

/-- A head's product at node `r`. -/
def headDot (H : Feat.Idx → EReal) (w : Col.Idx → EReal) (r : Fin 100000) : EReal :=
  ∑ k : Fin 128, H (ix2 r k) * w (ix2 k 0)

/-- The prediction at node `r`. -/
def pred (H : Feat.Idx → EReal) (Wp : Col.Idx → EReal) (bp : EReal) (r : Fin 100000) : EReal :=
  headDot H Wp r + bp

/-- The gate at node `r`. -/
def gate (H : Feat.Idx → EReal) (Wd : Col.Idx → EReal) (bd : EReal) (r : Fin 100000) : EReal :=
  Ideal.logistic (headDot H Wd r + bd)

/-- First result: prediction minus gate. -/
def outDiff (H : Feat.Idx → EReal) (Wp : Col.Idx → EReal) (bp : EReal) (Wd : Col.Idx → EReal) (bd : EReal) :
    PerNode.Idx → EReal :=
  fun i => pred H Wp bp (i 0) - gate H Wd bd (i 0)

/-- Second result: prediction plus gate. -/
def outSum (H : Feat.Idx → EReal) (Wp : Col.Idx → EReal) (bp : EReal) (Wd : Col.Idx → EReal) (bd : EReal) :
    PerNode.Idx → EReal :=
  fun i => pred H Wp bp (i 0) + gate H Wd bd (i 0)

end Cert.Spec

end
-- ==== Proof.RefSide.lean ====
/-
  The reference program is the specification.

  The generated read-back of the reference names every operation's value as a function of the arguments.  Its
  operations 0–21 compute the mean over in-neighbours of a feature array from the edge list (gather the source
  rows, scatter-add them at the destinations, divide by the in-degree clipped below at one); that composite,
  `Read.val_main_v21`, is taken here as THE mean aggregation, a function of a feature array and the edge list, and
  never opened.  The second layer's aggregation is the same composite applied to the first layer's result.  Around
  it each layer is two 128-term products, a bias and a rectifier, and the heads are two 128-term products, two
  biases and a logistic written out as `1 / (1 + e^(−y))`, which on the extended reals IS the logistic.
-/
import proofs.«179776_j11914239279506_1_alg».proof.Proof.Gen.ReferenceIdeal.Read
import proofs.«179776_j11914239279506_1_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx
open scoped BigOperators

/-- A feature array, the edge list, a weight matrix, a bias vector, a head's column and a head's bias, as the
    reference's buffers hold them at `Ideal`. -/
abbrev FeatBuf := (⟨S100000x128, .f32⟩ : BufTy).Contents (Elt Ideal)
abbrev EdgeBuf := (⟨S2x1600000, .i32⟩ : BufTy).Contents (Elt Ideal)
abbrev MatBuf := (⟨S128x128, .f32⟩ : BufTy).Contents (Elt Ideal)
abbrev VecBuf := (⟨S128, .f32⟩ : BufTy).Contents (Elt Ideal)
abbrev ColBuf := (⟨S128x1, .f32⟩ : BufTy).Contents (Elt Ideal)
abbrev OneBuf := (⟨S1, .f32⟩ : BufTy).Contents (Elt Ideal)

/-- The mean over in-neighbours of a feature array: the reference's operations 0–21 as one function. -/
abbrev meanAgg (feat : FeatBuf) (edges : EdgeBuf) : FeatBuf := val_main_v21 (F := Ideal) feat edges

/-- The second layer aggregates the first layer's result by the same operations. -/
theorem agg_second (x0 : FeatBuf) (x1 : EdgeBuf) (x2 : MatBuf) (x3 : VecBuf) (x4 : MatBuf) :
    val_main_v46 (F := Ideal) x0 x1 x2 x3 x4 = meanAgg (val_main_v28 (F := Ideal) x0 x1 x2 x3 x4) x1 := rfl

/-- The first layer's result. -/
theorem layer_first (x0 : FeatBuf) (x1 : EdgeBuf) (x2 : MatBuf) (x3 : VecBuf) (x4 : MatBuf) :
    val_main_v28 (F := Ideal) x0 x1 x2 x3 x4 = Spec.layer (meanAgg x0 x1) x0 x2 (fun j => x3 (ix1 j)) x4 := by
  funext i
  rw [val_main_v28_apply, val_main_v27_apply, val_main_v25_apply, val_main_v22_apply, val_main_v24_apply,
    val_main_v23_apply, val_main_v26_apply, val_main_call1_v0_apply, val_main_call1_cst_apply,
    ← Spec.layer_bias_first]
  have e1 : ∀ k, lidx_main_v22 i k = ix2 (i 0) k := fun k => funext fun a => Fin.ext (by match a with | ⟨0, _⟩ => rfl | ⟨1, _⟩ => rfl)
  have e2 : ∀ k, ridx_main_v22 i k = ix2 k (i 1) := fun k => funext fun a => Fin.ext (by match a with | ⟨0, _⟩ => rfl | ⟨1, _⟩ => rfl)
  have e3 : ∀ k, lidx_main_v26 i k = ix2 (i 0) k := fun k => funext fun a => Fin.ext (by match a with | ⟨0, _⟩ => rfl | ⟨1, _⟩ => rfl)
  have e4 : ∀ k, ridx_main_v26 i k = ix2 k (i 1) := fun k => funext fun a => Fin.ext (by match a with | ⟨0, _⟩ => rfl | ⟨1, _⟩ => rfl)
  have e5 : idx_main_v23 (idx_main_v24 i) = ix1 (i 1) := funext fun a => Fin.ext (by match a with | ⟨0, _⟩ => rfl)
  simp only [e1, e2, e3, e4, e5]
  rfl

/-- The second layer's result. -/
theorem layer_second (x0 : FeatBuf) (x1 : EdgeBuf) (x2 : MatBuf) (x3 : VecBuf) (x4 x5 : MatBuf) (x6 : VecBuf) (x7 : MatBuf) :
    val_main_v53 (F := Ideal) x0 x1 x2 x3 x4 x5 x6 x7
      = Spec.layer (meanAgg (val_main_v28 (F := Ideal) x0 x1 x2 x3 x4) x1) (val_main_v28 (F := Ideal) x0 x1 x2 x3 x4) x5 (fun j => x6 (ix1 j)) x7 := by
  funext i
  rw [val_main_v53_apply, val_main_v52_apply, val_main_v50_apply, val_main_v47_apply, val_main_v49_apply,
    val_main_v48_apply, val_main_v51_apply, val_main_call3_v0_apply, val_main_call3_cst_apply, agg_second,
    ← Spec.layer_bias_first]
  have e1 : ∀ k, lidx_main_v47 i k = ix2 (i 0) k := fun k => funext fun a => Fin.ext (by match a with | ⟨0, _⟩ => rfl | ⟨1, _⟩ => rfl)
  have e2 : ∀ k, ridx_main_v47 i k = ix2 k (i 1) := fun k => funext fun a => Fin.ext (by match a with | ⟨0, _⟩ => rfl | ⟨1, _⟩ => rfl)
  have e3 : ∀ k, lidx_main_v51 i k = ix2 (i 0) k := fun k => funext fun a => Fin.ext (by match a with | ⟨0, _⟩ => rfl | ⟨1, _⟩ => rfl)
  have e4 : ∀ k, ridx_main_v51 i k = ix2 k (i 1) := fun k => funext fun a => Fin.ext (by match a with | ⟨0, _⟩ => rfl | ⟨1, _⟩ => rfl)
  have e5 : idx_main_v48 (idx_main_v49 i) = ix1 (i 1) := funext fun a => Fin.ext (by match a with | ⟨0, _⟩ => rfl)
  simp only [e1, e2, e3, e4, e5]
  rfl

/-- The quotient the reference writes for the gate is the logistic. -/
theorem gate_written_out (y : EReal) :
    FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) y)))
      = Ideal.logistic y := by
  show Ideal.div (Ideal.ofBits .f32 0x3F800000#32) (Ideal.ofBits .f32 0x3F800000#32 + Ideal.exp (-y)) = _
  rw [Ideal.ofBits_one_f32]
  rfl

section Heads
variable (H : FeatBuf) (x8 : ColBuf) (x9 : OneBuf) (x10 : ColBuf) (x11 : OneBuf)

theorem head_idx (i : S100000x1.Idx) :
    (∀ k, lidx_main_v54 i k = ix2 (i 0) k) ∧ (∀ k, ridx_main_v54 i k = ix2 k 0)
    ∧ (∀ k, lidx_main_v58 i k = ix2 (i 0) k) ∧ (∀ k, ridx_main_v58 i k = ix2 k 0)
    ∧ idx_main_v55 (idx_main_v56 i) = ix1 0 ∧ idx_main_v59 (idx_main_v60 i) = ix1 0 := by
  have h1 : (i 1).val = 0 := by have h : (i 1).val < 1 := (i 1).isLt; omega
  refine ⟨fun k => funext fun a => Fin.ext (by match a with | ⟨0, _⟩ => rfl | ⟨1, _⟩ => rfl),
    fun k => funext fun a => Fin.ext (by match a with | ⟨0, _⟩ => rfl | ⟨1, _⟩ => exact h1),
    fun k => funext fun a => Fin.ext (by match a with | ⟨0, _⟩ => rfl | ⟨1, _⟩ => rfl),
    fun k => funext fun a => Fin.ext (by match a with | ⟨0, _⟩ => rfl | ⟨1, _⟩ => exact h1),
    funext fun a => Fin.ext (by match a with | ⟨0, _⟩ => rfl),
    funext fun a => Fin.ext (by match a with | ⟨0, _⟩ => rfl)⟩

end Heads

/-- The reference's first result. -/
theorem result_diff (x0 : FeatBuf) (x1 : EdgeBuf) (x2 : MatBuf) (x3 : VecBuf) (x4 x5 : MatBuf) (x6 : VecBuf) (x7 : MatBuf)
    (x8 : ColBuf) (x9 : OneBuf) (x10 : ColBuf) (x11 : OneBuf) :
    val_main_v68 (F := Ideal) x0 x1 x2 x3 x4 x5 x6 x7 x8 x9 x10 x11
      = Spec.outDiff (val_main_v53 (F := Ideal) x0 x1 x2 x3 x4 x5 x6 x7) x8 (x9 (ix1 0)) x10 (x11 (ix1 0)) := by
  funext i
  obtain ⟨e1, e2, e3, e4, e5, e6⟩ := head_idx i
  rw [val_main_v68_apply, val_main_v57_apply, val_main_v54_apply, val_main_v56_apply, val_main_v55_apply,
    val_main_v67_apply, val_main_v66_apply, val_main_cst_11_apply, val_main_v65_apply, val_main_v64_apply,
    val_main_cst_10_apply, val_main_v63_apply, val_main_v62_apply, val_main_v61_apply, val_main_v58_apply,
    val_main_v60_apply, val_main_v59_apply, gate_written_out]
  simp only [e1, e2, e3, e4, e5, e6]
  rfl

/-- The reference's second result. -/
theorem result_sum (x0 : FeatBuf) (x1 : EdgeBuf) (x2 : MatBuf) (x3 : VecBuf) (x4 x5 : MatBuf) (x6 : VecBuf) (x7 : MatBuf)
    (x8 : ColBuf) (x9 : OneBuf) (x10 : ColBuf) (x11 : OneBuf) :
    val_main_v69 (F := Ideal) x0 x1 x2 x3 x4 x5 x6 x7 x8 x9 x10 x11
      = Spec.outSum (val_main_v53 (F := Ideal) x0 x1 x2 x3 x4 x5 x6 x7) x8 (x9 (ix1 0)) x10 (x11 (ix1 0)) := by
  funext i
  obtain ⟨e1, e2, e3, e4, e5, e6⟩ := head_idx i
  rw [val_main_v69_apply, val_main_v57_apply, val_main_v54_apply, val_main_v56_apply, val_main_v55_apply,
    val_main_v67_apply, val_main_v66_apply, val_main_cst_11_apply, val_main_v65_apply, val_main_v64_apply,
    val_main_cst_10_apply, val_main_v63_apply, val_main_v62_apply, val_main_v61_apply, val_main_v58_apply,
    val_main_v60_apply, val_main_v59_apply, gate_written_out]
  simp only [e1, e2, e3, e4, e5, e6]
  rfl

/-! ## The two results as functions of the twelve arguments -/

section Whole
variable (x0 : FeatBuf) (x1 : EdgeBuf) (x2 : MatBuf) (x3 : VecBuf) (x4 x5 : MatBuf) (x6 : VecBuf) (x7 : MatBuf)
  (x8 : ColBuf) (x9 : OneBuf) (x10 : ColBuf) (x11 : OneBuf)

/-- The first layer's hidden features. -/
def hidden1 : FeatBuf := Spec.layer (meanAgg x0 x1) x0 x2 (fun j => x3 (ix1 j)) x4

/-- The second layer's hidden features. -/
def hidden2 : FeatBuf :=
  Spec.layer (meanAgg (hidden1 x0 x1 x2 x3 x4) x1) (hidden1 x0 x1 x2 x3 x4) x5 (fun j => x6 (ix1 j)) x7

/-- The first result: prediction minus gate on the second layer's hidden features. -/
def specDiff : Spec.PerNode.Idx → EReal :=
  Spec.outDiff (hidden2 x0 x1 x2 x3 x4 x5 x6 x7) x8 (x9 (ix1 0)) x10 (x11 (ix1 0))

/-- The second result: prediction plus gate. -/
def specSum : Spec.PerNode.Idx → EReal :=
  Spec.outSum (hidden2 x0 x1 x2 x3 x4 x5 x6 x7) x8 (x9 (ix1 0)) x10 (x11 (ix1 0))

theorem ref_diff : val_main_v68 (F := Ideal) x0 x1 x2 x3 x4 x5 x6 x7 x8 x9 x10 x11 = specDiff x0 x1 x2 x3 x4 x5 x6 x7 x8 x9 x10 x11 := by
  rw [result_diff, layer_second, layer_first]
  rfl

theorem ref_sum : val_main_v69 (F := Ideal) x0 x1 x2 x3 x4 x5 x6 x7 x8 x9 x10 x11 = specSum x0 x1 x2 x3 x4 x5 x6 x7 x8 x9 x10 x11 := by
  rw [result_sum, layer_second, layer_first]
  rfl

end Whole

end Cert.ReferenceIdeal.RefValue

end
-- ==== Proof.HostKeep.lean ====
/-
  The buffers the host stretches leave alone.

  Three stretches of host operations run before the first pallas_call and three between the two.  An operation
  changes only the buffer it writes; a buffer none of a stretch's operations writes holds after the stretch what
  it held before.  Listed here, from any contents `F`: the arguments through the first three stretches, and the
  first region's result and the arguments through the other three.
-/
import proofs.«179776_j11914239279506_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo

/-- Closes `after ops V b = V b` for a literal stretch `ops` none of whose operations writes `b`. -/
macro "unwritten" : tactic => `(tactic| (
  refine StableHlo.after_of_forall_not_mem _ _ (List.forall_iff_forall_mem.mp ?_)
  simp only [hostOps0, hostOps0_1, hostOps0_2, hostOps1, hostOps1_1, hostOps1_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section Stretches
variable (F : Valuation τ sig (Elt Ideal))

/-- The three stretches before the first region. -/
abbrev pre : Valuation τ sig (Elt Ideal) := StableHlo.after hostOps0_2 (StableHlo.after hostOps0_1 (StableHlo.after hostOps0 F))
/-- The three stretches between the regions. -/
abbrev mid : Valuation τ sig (Elt Ideal) := StableHlo.after hostOps1_2 (StableHlo.after hostOps1_1 (StableHlo.after hostOps1 F))

theorem pre_main_arg0 : pre F (Proc.devRef .tc main_arg0) = F (Proc.devRef .tc main_arg0) :=
  calc pre F (Proc.devRef .tc main_arg0)
    _ = StableHlo.after hostOps0_1 (StableHlo.after hostOps0 F) (Proc.devRef .tc main_arg0) := by unwritten
    _ = StableHlo.after hostOps0 F (Proc.devRef .tc main_arg0) := by unwritten
    _ = F (Proc.devRef .tc main_arg0) := by unwritten

theorem pre_main_arg2 : pre F (Proc.devRef .tc main_arg2) = F (Proc.devRef .tc main_arg2) :=
  calc pre F (Proc.devRef .tc main_arg2)
    _ = StableHlo.after hostOps0_1 (StableHlo.after hostOps0 F) (Proc.devRef .tc main_arg2) := by unwritten
    _ = StableHlo.after hostOps0 F (Proc.devRef .tc main_arg2) := by unwritten
    _ = F (Proc.devRef .tc main_arg2) := by unwritten

theorem pre_main_arg3 : pre F (Proc.devRef .tc main_arg3) = F (Proc.devRef .tc main_arg3) :=
  calc pre F (Proc.devRef .tc main_arg3)
    _ = StableHlo.after hostOps0_1 (StableHlo.after hostOps0 F) (Proc.devRef .tc main_arg3) := by unwritten
    _ = StableHlo.after hostOps0 F (Proc.devRef .tc main_arg3) := by unwritten
    _ = F (Proc.devRef .tc main_arg3) := by unwritten

theorem pre_main_arg4 : pre F (Proc.devRef .tc main_arg4) = F (Proc.devRef .tc main_arg4) :=
  calc pre F (Proc.devRef .tc main_arg4)
    _ = StableHlo.after hostOps0_1 (StableHlo.after hostOps0 F) (Proc.devRef .tc main_arg4) := by unwritten
    _ = StableHlo.after hostOps0 F (Proc.devRef .tc main_arg4) := by unwritten
    _ = F (Proc.devRef .tc main_arg4) := by unwritten

theorem pre_main_arg5 : pre F (Proc.devRef .tc main_arg5) = F (Proc.devRef .tc main_arg5) :=
  calc pre F (Proc.devRef .tc main_arg5)
    _ = StableHlo.after hostOps0_1 (StableHlo.after hostOps0 F) (Proc.devRef .tc main_arg5) := by unwritten
    _ = StableHlo.after hostOps0 F (Proc.devRef .tc main_arg5) := by unwritten
    _ = F (Proc.devRef .tc main_arg5) := by unwritten

theorem pre_main_arg6 : pre F (Proc.devRef .tc main_arg6) = F (Proc.devRef .tc main_arg6) :=
  calc pre F (Proc.devRef .tc main_arg6)
    _ = StableHlo.after hostOps0_1 (StableHlo.after hostOps0 F) (Proc.devRef .tc main_arg6) := by unwritten
    _ = StableHlo.after hostOps0 F (Proc.devRef .tc main_arg6) := by unwritten
    _ = F (Proc.devRef .tc main_arg6) := by unwritten

theorem pre_main_arg7 : pre F (Proc.devRef .tc main_arg7) = F (Proc.devRef .tc main_arg7) :=
  calc pre F (Proc.devRef .tc main_arg7)
    _ = StableHlo.after hostOps0_1 (StableHlo.after hostOps0 F) (Proc.devRef .tc main_arg7) := by unwritten
    _ = StableHlo.after hostOps0 F (Proc.devRef .tc main_arg7) := by unwritten
    _ = F (Proc.devRef .tc main_arg7) := by unwritten

theorem pre_main_arg8 : pre F (Proc.devRef .tc main_arg8) = F (Proc.devRef .tc main_arg8) :=
  calc pre F (Proc.devRef .tc main_arg8)
    _ = StableHlo.after hostOps0_1 (StableHlo.after hostOps0 F) (Proc.devRef .tc main_arg8) := by unwritten
    _ = StableHlo.after hostOps0 F (Proc.devRef .tc main_arg8) := by unwritten
    _ = F (Proc.devRef .tc main_arg8) := by unwritten

theorem pre_main_arg9 : pre F (Proc.devRef .tc main_arg9) = F (Proc.devRef .tc main_arg9) :=
  calc pre F (Proc.devRef .tc main_arg9)
    _ = StableHlo.after hostOps0_1 (StableHlo.after hostOps0 F) (Proc.devRef .tc main_arg9) := by unwritten
    _ = StableHlo.after hostOps0 F (Proc.devRef .tc main_arg9) := by unwritten
    _ = F (Proc.devRef .tc main_arg9) := by unwritten

theorem pre_main_arg10 : pre F (Proc.devRef .tc main_arg10) = F (Proc.devRef .tc main_arg10) :=
  calc pre F (Proc.devRef .tc main_arg10)
    _ = StableHlo.after hostOps0_1 (StableHlo.after hostOps0 F) (Proc.devRef .tc main_arg10) := by unwritten
    _ = StableHlo.after hostOps0 F (Proc.devRef .tc main_arg10) := by unwritten
    _ = F (Proc.devRef .tc main_arg10) := by unwritten

theorem pre_main_arg11 : pre F (Proc.devRef .tc main_arg11) = F (Proc.devRef .tc main_arg11) :=
  calc pre F (Proc.devRef .tc main_arg11)
    _ = StableHlo.after hostOps0_1 (StableHlo.after hostOps0 F) (Proc.devRef .tc main_arg11) := by unwritten
    _ = StableHlo.after hostOps0 F (Proc.devRef .tc main_arg11) := by unwritten
    _ = F (Proc.devRef .tc main_arg11) := by unwritten

theorem mid_main_v23 : mid F (Proc.devRef .tc main_v23) = F (Proc.devRef .tc main_v23) :=
  calc mid F (Proc.devRef .tc main_v23)
    _ = StableHlo.after hostOps1_1 (StableHlo.after hostOps1 F) (Proc.devRef .tc main_v23) := by unwritten
    _ = StableHlo.after hostOps1 F (Proc.devRef .tc main_v23) := by unwritten
    _ = F (Proc.devRef .tc main_v23) := by unwritten

theorem mid_main_arg5 : mid F (Proc.devRef .tc main_arg5) = F (Proc.devRef .tc main_arg5) :=
  calc mid F (Proc.devRef .tc main_arg5)
    _ = StableHlo.after hostOps1_1 (StableHlo.after hostOps1 F) (Proc.devRef .tc main_arg5) := by unwritten
    _ = StableHlo.after hostOps1 F (Proc.devRef .tc main_arg5) := by unwritten
    _ = F (Proc.devRef .tc main_arg5) := by unwritten

theorem mid_main_arg6 : mid F (Proc.devRef .tc main_arg6) = F (Proc.devRef .tc main_arg6) :=
  calc mid F (Proc.devRef .tc main_arg6)
    _ = StableHlo.after hostOps1_1 (StableHlo.after hostOps1 F) (Proc.devRef .tc main_arg6) := by unwritten
    _ = StableHlo.after hostOps1 F (Proc.devRef .tc main_arg6) := by unwritten
    _ = F (Proc.devRef .tc main_arg6) := by unwritten

theorem mid_main_arg7 : mid F (Proc.devRef .tc main_arg7) = F (Proc.devRef .tc main_arg7) :=
  calc mid F (Proc.devRef .tc main_arg7)
    _ = StableHlo.after hostOps1_1 (StableHlo.after hostOps1 F) (Proc.devRef .tc main_arg7) := by unwritten
    _ = StableHlo.after hostOps1 F (Proc.devRef .tc main_arg7) := by unwritten
    _ = F (Proc.devRef .tc main_arg7) := by unwritten

theorem mid_main_arg8 : mid F (Proc.devRef .tc main_arg8) = F (Proc.devRef .tc main_arg8) :=
  calc mid F (Proc.devRef .tc main_arg8)
    _ = StableHlo.after hostOps1_1 (StableHlo.after hostOps1 F) (Proc.devRef .tc main_arg8) := by unwritten
    _ = StableHlo.after hostOps1 F (Proc.devRef .tc main_arg8) := by unwritten
    _ = F (Proc.devRef .tc main_arg8) := by unwritten

theorem mid_main_arg9 : mid F (Proc.devRef .tc main_arg9) = F (Proc.devRef .tc main_arg9) :=
  calc mid F (Proc.devRef .tc main_arg9)
    _ = StableHlo.after hostOps1_1 (StableHlo.after hostOps1 F) (Proc.devRef .tc main_arg9) := by unwritten
    _ = StableHlo.after hostOps1 F (Proc.devRef .tc main_arg9) := by unwritten
    _ = F (Proc.devRef .tc main_arg9) := by unwritten

theorem mid_main_arg10 : mid F (Proc.devRef .tc main_arg10) = F (Proc.devRef .tc main_arg10) :=
  calc mid F (Proc.devRef .tc main_arg10)
    _ = StableHlo.after hostOps1_1 (StableHlo.after hostOps1 F) (Proc.devRef .tc main_arg10) := by unwritten
    _ = StableHlo.after hostOps1 F (Proc.devRef .tc main_arg10) := by unwritten
    _ = F (Proc.devRef .tc main_arg10) := by unwritten

theorem mid_main_arg11 : mid F (Proc.devRef .tc main_arg11) = F (Proc.devRef .tc main_arg11) :=
  calc mid F (Proc.devRef .tc main_arg11)
    _ = StableHlo.after hostOps1_1 (StableHlo.after hostOps1 F) (Proc.devRef .tc main_arg11) := by unwritten
    _ = StableHlo.after hostOps1 F (Proc.devRef .tc main_arg11) := by unwritten
    _ = F (Proc.devRef .tc main_arg11) := by unwritten

end Stretches

end Cert.KernelIdeal.Chain

end
-- ==== Proof.HostPre.lean ====
/-
  The host operations before the first pallas_call, from any contents `F`.

  They slice the edge list into sources and destinations, gather the source rows of the node features,
  scatter-add them at the destinations, count the in-degrees the same way, clip the counts below at one, divide,
  and reshape the first bias to a row.  The reference program's first 22 operations are the same ones on the same
  arguments, so each value the host leaves is the value the reference's read-back names for it.  One stretch at a
  time: the first stretch computes the sums and the counts, the second the clipped counts, the third the quotient.
-/
import proofs.«179776_j11914239279506_1_alg».proof.Proof.Gen.KernelIdeal.Frame
import proofs.«179776_j11914239279506_1_alg».proof.Proof.Gen.ReferenceIdeal.Read
import proofs.«179776_j11914239279506_1_alg».proof.Proof.HostKeep
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.ReferenceIdeal.Read (val_main_v1 val_main_v3 val_main_v13 val_main_v17 val_main_cst_3 val_main_v18 val_main_v21)

section Stretches
variable (F : Valuation τ sig (Elt Ideal))

/-! ## The first stretch -/

set_option maxHeartbeats 2000000 in
/-- The edges' sources. -/
theorem s0_src : StableHlo.after hostOps0 F (Proc.devRef .tc main_v1) = val_main_v1 (F := Ideal) (F (Proc.devRef .tc main_arg1)) := by
  after_results
  rfl

set_option maxHeartbeats 2000000 in
/-- The edges' destinations. -/
theorem s0_dst : StableHlo.after hostOps0 F (Proc.devRef .tc main_v3) = val_main_v3 (F := Ideal) (F (Proc.devRef .tc main_arg1)) := by
  after_results
  rfl

set_option maxHeartbeats 2000000 in
/-- The sums of the in-neighbours' features. -/
theorem s0_sums : StableHlo.after hostOps0 F (Proc.devRef .tc main_v13) = val_main_v13 (F := Ideal) (F (Proc.devRef .tc main_arg0)) (F (Proc.devRef .tc main_arg1)) := by
  after_results
  rfl

set_option maxHeartbeats 2000000 in
/-- The in-degrees. -/
theorem s0_counts : StableHlo.after hostOps0 F (Proc.devRef .tc main_v17) = val_main_v17 (F := Ideal) (F (Proc.devRef .tc main_arg1)) := by
  after_results
  rfl

set_option maxHeartbeats 2000000 in
/-- The one the counts are clipped at. -/
theorem s0_one : StableHlo.after hostOps0 F (Proc.devRef .tc main_cst_3) = val_main_cst_3 (F := Ideal) := by
  after_results
  rfl

/-! ## The second stretch -/

/-- The clipped in-degrees, from contents holding the counts and the one. -/
theorem s01_clipped (E : (⟨Cert.ReferenceIdeal.S2x1600000, .i32⟩ : BufTy).Contents (Elt Ideal))
    (h1 : F (Proc.devRef .tc main_cst_3) = val_main_cst_3 (F := Ideal)) (h17 : F (Proc.devRef .tc main_v17) = val_main_v17 (F := Ideal) E) :
    StableHlo.after hostOps0_1 F (Proc.devRef .tc main_v18) = val_main_v18 (F := Ideal) E := by
  after_results
  show (maximumf (broadcastInDim S100000 ![] bcast_S_S100000 (id (F (Proc.devRef .tc main_cst_3)))) (F (Proc.devRef .tc main_v17)) : FVec Ideal S100000 .f32) = _
  rw [h1, h17]
  rfl

/-! ## The third stretch -/

/-- The mean, from contents holding the sums and the clipped in-degrees. -/
theorem s02_mean (X : (⟨Cert.ReferenceIdeal.S100000x128, .f32⟩ : BufTy).Contents (Elt Ideal))
    (E : (⟨Cert.ReferenceIdeal.S2x1600000, .i32⟩ : BufTy).Contents (Elt Ideal))
    (h13 : F (Proc.devRef .tc main_v13) = val_main_v13 (F := Ideal) X E) (h18 : F (Proc.devRef .tc main_v18) = val_main_v18 (F := Ideal) E) :
    StableHlo.after hostOps0_2 F (Proc.devRef .tc main_v21) = val_main_v21 (F := Ideal) X E := by
  after_results
  rw [h13, h18]
  rfl

/-- The first bias as a row. -/
theorem s02_bias : StableHlo.after hostOps0_2 F (Proc.devRef .tc main_v22) = shapeCast S1x128 (F (Proc.devRef .tc main_arg3)) shapeCasts_S128_S1x128 := by
  after_results
  rfl

/-! ## The three stretches together -/

/-- Before the first region the host leaves the mean aggregation of the features along the edge list. -/
theorem pre_agg : pre F (Proc.devRef .tc main_v21) = val_main_v21 (F := Ideal) (F (Proc.devRef .tc main_arg0)) (F (Proc.devRef .tc main_arg1)) :=
  s02_mean (StableHlo.after hostOps0_1 (StableHlo.after hostOps0 F)) (F (Proc.devRef .tc main_arg0)) (F (Proc.devRef .tc main_arg1))
    ((by unwritten : StableHlo.after hostOps0_1 (StableHlo.after hostOps0 F) (Proc.devRef .tc main_v13) = StableHlo.after hostOps0 F (Proc.devRef .tc main_v13)).trans (s0_sums F))
    (s01_clipped (StableHlo.after hostOps0 F) (F (Proc.devRef .tc main_arg1)) (s0_one F) (s0_counts F))

/-- … the edges' sources … -/
theorem pre_src : pre F (Proc.devRef .tc main_v1) = val_main_v1 (F := Ideal) (F (Proc.devRef .tc main_arg1)) :=
  calc pre F (Proc.devRef .tc main_v1)
    _ = StableHlo.after hostOps0_1 (StableHlo.after hostOps0 F) (Proc.devRef .tc main_v1) := by unwritten
    _ = StableHlo.after hostOps0 F (Proc.devRef .tc main_v1) := by unwritten
    _ = _ := s0_src F

/-- … the edges' destinations … -/
theorem pre_dst : pre F (Proc.devRef .tc main_v3) = val_main_v3 (F := Ideal) (F (Proc.devRef .tc main_arg1)) :=
  calc pre F (Proc.devRef .tc main_v3)
    _ = StableHlo.after hostOps0_1 (StableHlo.after hostOps0 F) (Proc.devRef .tc main_v3) := by unwritten
    _ = StableHlo.after hostOps0 F (Proc.devRef .tc main_v3) := by unwritten
    _ = _ := s0_dst F

/-- … and the first bias as a row. -/
theorem pre_bias : pre F (Proc.devRef .tc main_v22) = shapeCast S1x128 (F (Proc.devRef .tc main_arg3)) shapeCasts_S128_S1x128 := by
  refine (s02_bias (StableHlo.after hostOps0_1 (StableHlo.after hostOps0 F))).trans ?_
  rw [show StableHlo.after hostOps0_1 (StableHlo.after hostOps0 F) (Proc.devRef .tc main_arg3) = F (Proc.devRef .tc main_arg3) from
    (by unwritten : StableHlo.after hostOps0_1 (StableHlo.after hostOps0 F) (Proc.devRef .tc main_arg3) = StableHlo.after hostOps0 F (Proc.devRef .tc main_arg3)).trans (by unwritten)]

end Stretches

end Cert.KernelIdeal.Chain

end
-- ==== Proof.HostMid.lean ====
/-
  The host operations between the two pallas_calls, from any contents `F`.

  They are the operations that ran before the first region, applied to the first region's result instead of the
  node features, with the edges' sources and destinations taken from the buffers the first stretch left: gather,
  scatter-add, count, clip, divide.  Then the three remaining biases are reshaped.  So what they leave for the
  second region is the mean aggregation of the first region's result along the same edge list.
-/
import proofs.«179776_j11914239279506_1_alg».proof.Proof.Gen.KernelIdeal.Frame
import proofs.«179776_j11914239279506_1_alg».proof.Proof.Gen.ReferenceIdeal.Read
import proofs.«179776_j11914239279506_1_alg».proof.Proof.HostKeep
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.ReferenceIdeal.Read (val_main_v1 val_main_v3 val_main_v13 val_main_v17 val_main_cst_3 val_main_v18 val_main_v21)

section Stretches
variable (F : Valuation τ sig (Elt Ideal))

/-! ## The first of the three stretches -/

set_option maxHeartbeats 2000000 in
/-- The sums of the in-neighbours' rows of the first region's result. -/
theorem s1_sums (E : (⟨Cert.ReferenceIdeal.S2x1600000, .i32⟩ : BufTy).Contents (Elt Ideal))
    (hs : F (Proc.devRef .tc main_v1) = val_main_v1 (F := Ideal) E) (hd : F (Proc.devRef .tc main_v3) = val_main_v3 (F := Ideal) E) :
    StableHlo.after hostOps1 F (Proc.devRef .tc main_v33) = val_main_v13 (F := Ideal) (F (Proc.devRef .tc main_v23)) E := by
  after_results
  rw [hs, hd]
  rfl

set_option maxHeartbeats 2000000 in
/-- The in-degrees, counted again. -/
theorem s1_counts (E : (⟨Cert.ReferenceIdeal.S2x1600000, .i32⟩ : BufTy).Contents (Elt Ideal))
    (hd : F (Proc.devRef .tc main_v3) = val_main_v3 (F := Ideal) E) :
    StableHlo.after hostOps1 F (Proc.devRef .tc main_v37) = val_main_v17 (F := Ideal) E := by
  after_results
  rw [hd]
  rfl

set_option maxHeartbeats 2000000 in
/-- The one the counts are clipped at. -/
theorem s1_one : StableHlo.after hostOps1 F (Proc.devRef .tc main_cst_9) = val_main_cst_3 (F := Ideal) := by
  after_results
  rfl

/-! ## The second -/

/-- The clipped in-degrees, from contents holding the counts and the one. -/
theorem s11_clipped (E : (⟨Cert.ReferenceIdeal.S2x1600000, .i32⟩ : BufTy).Contents (Elt Ideal))
    (h1 : F (Proc.devRef .tc main_cst_9) = val_main_cst_3 (F := Ideal)) (h37 : F (Proc.devRef .tc main_v37) = val_main_v17 (F := Ideal) E) :
    StableHlo.after hostOps1_1 F (Proc.devRef .tc main_v38) = val_main_v18 (F := Ideal) E := by
  after_results
  show (maximumf (broadcastInDim S100000 ![] bcast_S_S100000 (id (F (Proc.devRef .tc main_cst_9)))) (F (Proc.devRef .tc main_v37)) : FVec Ideal S100000 .f32) = _
  rw [h1, h37]
  rfl

/-! ## The third -/

/-- The mean, from contents holding the sums and the clipped in-degrees. -/
theorem s12_mean (X : (⟨Cert.ReferenceIdeal.S100000x128, .f32⟩ : BufTy).Contents (Elt Ideal))
    (E : (⟨Cert.ReferenceIdeal.S2x1600000, .i32⟩ : BufTy).Contents (Elt Ideal))
    (h33 : F (Proc.devRef .tc main_v33) = val_main_v13 (F := Ideal) X E) (h38 : F (Proc.devRef .tc main_v38) = val_main_v18 (F := Ideal) E) :
    StableHlo.after hostOps1_2 F (Proc.devRef .tc main_v41) = val_main_v21 (F := Ideal) X E := by
  after_results
  rw [h33, h38]
  rfl

/-- The second bias as a row. -/
theorem s12_bias2 : StableHlo.after hostOps1_2 F (Proc.devRef .tc main_v42) = shapeCast S1x128 (F (Proc.devRef .tc main_arg6)) shapeCasts_S128_S1x128 := by
  after_results
  rfl

/-- The prediction head's bias as a 1 × 1 array. -/
theorem s12_biasp : StableHlo.after hostOps1_2 F (Proc.devRef .tc main_v43) = shapeCast S1x1 (F (Proc.devRef .tc main_arg9)) shapeCasts_S1_S1x1 := by
  after_results
  rfl

/-- The gate head's bias as a 1 × 1 array. -/
theorem s12_biasd : StableHlo.after hostOps1_2 F (Proc.devRef .tc main_v44) = shapeCast S1x1 (F (Proc.devRef .tc main_arg11)) shapeCasts_S1_S1x1 := by
  after_results
  rfl

/-! ## The three stretches together -/

/-- Between the regions the host leaves the mean aggregation of the first region's result along the edge list
    whose sources and destinations the contents hold. -/
theorem mid_agg (E : (⟨Cert.ReferenceIdeal.S2x1600000, .i32⟩ : BufTy).Contents (Elt Ideal))
    (hs : F (Proc.devRef .tc main_v1) = val_main_v1 (F := Ideal) E) (hd : F (Proc.devRef .tc main_v3) = val_main_v3 (F := Ideal) E) :
    mid F (Proc.devRef .tc main_v41) = val_main_v21 (F := Ideal) (F (Proc.devRef .tc main_v23)) E :=
  s12_mean (StableHlo.after hostOps1_1 (StableHlo.after hostOps1 F)) (F (Proc.devRef .tc main_v23)) E
    ((by unwritten : StableHlo.after hostOps1_1 (StableHlo.after hostOps1 F) (Proc.devRef .tc main_v33) = StableHlo.after hostOps1 F (Proc.devRef .tc main_v33)).trans (s1_sums F E hs hd))
    (s11_clipped (StableHlo.after hostOps1 F) E (s1_one F) (s1_counts F E hd))

theorem mid_bias2 : mid F (Proc.devRef .tc main_v42) = shapeCast S1x128 (F (Proc.devRef .tc main_arg6)) shapeCasts_S128_S1x128 := by
  refine (s12_bias2 (StableHlo.after hostOps1_1 (StableHlo.after hostOps1 F))).trans ?_
  rw [show StableHlo.after hostOps1_1 (StableHlo.after hostOps1 F) (Proc.devRef .tc main_arg6) = F (Proc.devRef .tc main_arg6) from
    (by unwritten : StableHlo.after hostOps1_1 (StableHlo.after hostOps1 F) (Proc.devRef .tc main_arg6) = StableHlo.after hostOps1 F (Proc.devRef .tc main_arg6)).trans (by unwritten)]

theorem mid_biasp : mid F (Proc.devRef .tc main_v43) = shapeCast S1x1 (F (Proc.devRef .tc main_arg9)) shapeCasts_S1_S1x1 := by
  refine (s12_biasp (StableHlo.after hostOps1_1 (StableHlo.after hostOps1 F))).trans ?_
  rw [show StableHlo.after hostOps1_1 (StableHlo.after hostOps1 F) (Proc.devRef .tc main_arg9) = F (Proc.devRef .tc main_arg9) from
    (by unwritten : StableHlo.after hostOps1_1 (StableHlo.after hostOps1 F) (Proc.devRef .tc main_arg9) = StableHlo.after hostOps1 F (Proc.devRef .tc main_arg9)).trans (by unwritten)]

theorem mid_biasd : mid F (Proc.devRef .tc main_v44) = shapeCast S1x1 (F (Proc.devRef .tc main_arg11)) shapeCasts_S1_S1x1 := by
  refine (s12_biasd (StableHlo.after hostOps1_1 (StableHlo.after hostOps1 F))).trans ?_
  rw [show StableHlo.after hostOps1_1 (StableHlo.after hostOps1 F) (Proc.devRef .tc main_arg11) = F (Proc.devRef .tc main_arg11) from
    (by unwritten : StableHlo.after hostOps1_1 (StableHlo.after hostOps1 F) (Proc.devRef .tc main_arg11) = StableHlo.after hostOps1 F (Proc.devRef .tc main_arg11)).trans (by unwritten)]

end Stretches

end Cert.KernelIdeal.Chain

end
-- ==== Proof.Block0.lean ====
/-
  The first pallas_call, one grid point at a time, then as a whole array.

  Point `t` of the grid of 20 stages rows `5000·t … 5000·t + 4999` of the neighbours' mean and of the node
  features, the two whole weight matrices and the bias row, and writes the same rows of the result.  Entry
  `(p, q)` of the block it writes is the layer's formula on row `p` of its two staged blocks; since a staged
  block is the array read at the block's offset, that is the layer's formula on row `5000·t + p` of the arrays.
  The 20 blocks tile the 100000 rows, so after the region the result array is the layer of the arrays the region
  was entered with, whatever those are (`V`).
-/
import proofs.«179776_j11914239279506_1_alg».proof.Proof.Gen.KernelIdeal.Frame
import proofs.«179776_j11914239279506_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## The product of a staged block with a weight matrix, entry by entry -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_k (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_k (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into a zero accumulator is, at entry `(p, q)`, the sum over the 128 contracted positions. -/
theorem matmul_entry {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_k _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_k _ _).trans hk
    | ⟨1, _⟩ => exact rhs_col _ _)
  rw [el, er]

/-- The bias row broadcast over the block's rows reads, at `(p, q)`, the row's entry `q`. -/
theorem bias_entry (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- What the body stores, at entry `(p, q)` of the block: the layer's formula on row `p` of the staged blocks. -/
theorem stored_entry (x0 x1 : Vec Ideal S5000x128 .f32) (x2 x4 : Vec Ideal S128x128 .f32) (x3 : Vec Ideal S1x128 .f32)
    (p : Fin 5000) (q : Fin 128) :
    k0_pay1 x0 x1 x2 x4 x3 (ix2 p q)
      = max (((∑ k : Fin 128, x0 (ix2 p k) * x2 (ix2 k q)) + (∑ k : Fin 128, x1 (ix2 p k) * x4 (ix2 k q))) + x3 (ix2 0 q)) Spec.zero := by
  unfold k0_pay1
  simp only [shapeCast_self]
  show max ((FloatOps.matmul dot_S5000x128_S128x128_S5000x128_1_0_0_1_n_n none x0 x2 (constant (F := Ideal) S5000x128 .f32 0x00000000#32) (ix2 p q)
      + FloatOps.matmul dot_S5000x128_S128x128_S5000x128_1_0_0_1_n_n none x1 x4 (constant (F := Ideal) S5000x128 .f32 0x00000000#32) (ix2 p q))
      + broadcastTo S5000x128 x3 broadcasts_S1x128_S5000x128 (ix2 p q)) Spec.zero = _
  rw [matmul_entry, matmul_entry, bias_entry]

/-- The same with the staged blocks known, row by row, as rows of whole arrays: the layer's formula at the
    array index `i`. -/
theorem entry_of_rows (x0 x1 : Vec Ideal S5000x128 .f32) (x2 x4 : Vec Ideal S128x128 .f32) (x3 : Vec Ideal S1x128 .f32)
    (A X : Spec.Feat.Idx → EReal) (Wl Wr : Spec.Mat.Idx → EReal) (b : Fin 128 → EReal)
    (p : Fin 5000) (q : Fin 128) (i : Spec.Feat.Idx)
    (hA : ∀ k : Fin 128, x0 (ix2 p k) = A (ix2 (i 0) k)) (hX : ∀ k : Fin 128, x1 (ix2 p k) = X (ix2 (i 0) k))
    (hWl : ∀ k : Fin 128, x2 (ix2 k q) = Wl (ix2 k (i 1))) (hWr : ∀ k : Fin 128, x4 (ix2 k q) = Wr (ix2 k (i 1)))
    (hb : x3 (ix2 0 q) = b (i 1)) :
    k0_pay1 x0 x1 x2 x4 x3 (ix2 p q) = Spec.layer A X Wl b Wr i := by
  rw [stored_entry]
  unfold Spec.layer Spec.rowDot
  simp only [hA, hX, hWl, hWr, hb]

/-! ## From the blocks to the array, at any entry contents `V` -/

section Region
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid of 20: the two row-blocked inputs and the output sit at block row `t`,
    the weights and the bias at the one block they have. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays the region is entered with. -/
abbrev result (c : Dev nD) : Spec.Feat.Idx → EReal :=
  Spec.layer (V c main_v21) (V c main_arg0) (V c main_arg2) (fun j => V c main_v22 (ix2 0 j)) (V c main_arg4)

/-- Entry `y` of the block point `t` stores is the layer at the array index the block puts `y` at. -/
theorem block_entry (c : Dev nD) (t : Fin cfg0.N) (y : S5000x128.Idx) :
    k0_pay1 (iblk0 V c 0 t) (iblk0 V c 1 t) (iblk0 V c 2 t) (iblk0 V c 4 t) (iblk0 V c 3 t) y
      = result V c (((cfg0.win 5).blk t).view.emb y) := by
  obtain ⟨a0, a1, b0, b1, c0, c1, d0, d1, e0, e1, f0, f1⟩ := block_indices t
  refine (congrArg (k0_pay1 (iblk0 V c 0 t) (iblk0 V c 1 t) (iblk0 V c 2 t) (iblk0 V c 4 t) (iblk0 V c 3 t)) (eq_ix2 y)).trans
    (entry_of_rows (iblk0 V c 0 t) (iblk0 V c 1 t) (iblk0 V c 2 t) (iblk0 V c 4 t) (iblk0 V c 3 t)
      (V c main_v21) (V c main_arg0) (V c main_arg2) (V c main_arg4) (fun j => V c main_v22 (ix2 0 j))
      (y 0) (y 1) (((cfg0.win 5).blk t).view.emb y) ?_ ?_ ?_ ?_ ?_)
  · intro k
    show V c main_v21 (((cfg0.win 0).blk t).view.emb (ix2 (y 0) k)) = _
    refine congrArg (V c main_v21) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * k.val = k.val; omega
  · intro k
    show V c main_arg0 (((cfg0.win 1).blk t).view.emb (ix2 (y 0) k)) = _
    refine congrArg (V c main_arg0) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * k.val = k.val; omega
  · intro k
    show V c main_arg2 (((cfg0.win 2).blk t).view.emb (ix2 k (y 1))) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (y 1).val = win0_5.index t (1 : Fin 2) * 128 + 1 * (y 1).val; omega
  · intro k
    show V c main_arg4 (((cfg0.win 4).blk t).view.emb (ix2 k (y 1))) = _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * (y 1).val = win0_5.index t (1 : Fin 2) * 128 + 1 * (y 1).val; omega
  · show V c main_v22 (((cfg0.win 3).blk t).view.emb (ix2 0 (y 1))) = V c main_v22 (ix2 0 ((((cfg0.win 5).blk t).view.emb y) 1))
    refine congrArg (V c main_v22) (funext fun a => Fin.ext ?_)
    match a with
    | ⟨0, _⟩ => show win0_3.index t (0 : Fin 2) * 1 + 1 * 0 = 0; omega
    | ⟨1, _⟩ => show win0_3.index t (1 : Fin 2) * 128 + 1 * (y 1).val = win0_5.index t (1 : Fin 2) * 128 + 1 * (y 1).val; omega

/-- What point `t` writes back is block `t` of the layer of the entry arrays. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  funext j
  exact block_entry V c t j

/-- An index of the result array is in point `t`'s block iff each coordinate is in the block's range. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Row `r` is written by point `r / 5000`: the 20 blocks tile the array. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, f0, f1⟩ := block_indices ⟨(i 0).val / 5000, ht⟩
  have f0' : win0_5.index ⟨(i 0).val / 5000, ht⟩ (0 : Fin 2) = (i 0).val / 5000 := f0
  refine ⟨⟨(i 0).val / 5000, ht⟩, flush0_5 _, ?_⟩
  rw [mem_block]
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; omega
  | ⟨1, _⟩ => show win0_5.index ⟨(i 0).val / 5000, ht⟩ (1 : Fin 2) * 128 ≤ (i 1).val ∧ (i 1).val < win0_5.index ⟨(i 0).val / 5000, ht⟩ (1 : Fin 2) * 128 + 128; omega

/-- After the region its result array is the layer of the arrays it was entered with. -/
theorem final (c : Dev nD) : (dat0 V c).arrAt 5 cfg0.N = result V c :=
  (dat0 V c).arrAt_eq_of_cover 5 (result V c) (fun t _ => flushed_eq V c t) covered

end Region

end Cert.KernelIdeal.Layer1

end
-- ==== Proof.Block1.lean ====
/-
  The second pallas_call, one grid point at a time, then as whole arrays.

  Point `t` of the grid of 20 stages rows `5000·t … 5000·t + 4999` of the second aggregation and of the first
  layer's result, the second layer's two weight matrices and bias row, and the two heads' columns and biases.  It
  forms the second layer's 5000 × 128 block of hidden features without ever writing it out, multiplies it by
  the two head columns, and writes rows `5000·t …` of the two results: prediction minus gate, prediction plus
  gate.  Entry `p` of either block is the specification's formula at node `5000·t + p` of the arrays the
  region was entered with; the 20 blocks tile the 100000 nodes.
-/
import proofs.«179776_j11914239279506_1_alg».proof.Proof.Gen.KernelIdeal.Frame
import proofs.«179776_j11914239279506_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## The two matrix products, entry by entry -/

theorem feat_lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem feat_lhs_k (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem feat_rhs_k (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem feat_rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into a zero accumulator, at entry `(p, q)`. -/
theorem feat_entry {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact feat_lhs_row _ _
    | ⟨1, _⟩ => exact (feat_lhs_k _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (feat_rhs_k _ _).trans hk
    | ⟨1, _⟩ => exact feat_rhs_col _ _)
  rw [el, er]

theorem col_lhs_row (i : S5000x1.Idx) (q : dot_S5000x128_S128x1_S5000x1_1_0_0_1_n_n.contr.Idx) : (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem col_lhs_k (i : S5000x1.Idx) (q : dot_S5000x128_S128x1_S5000x1_1_0_0_1_n_n.contr.Idx) : (dot_S5000x128_S128x1_S5000x1_1_0_0_1_n_n.lhsIdx i q 1).val = (q ⟨0, by decide⟩).val :=
  dot_S5000x128_S128x1_S5000x1_1_0_0_1_n_n.lhsIdx_val_of_single rfl i q
theorem col_rhs_k (i : S5000x1.Idx) (q : dot_S5000x128_S128x1_S5000x1_1_0_0_1_n_n.contr.Idx) : (dot_S5000x128_S128x1_S5000x1_1_0_0_1_n_n.rhsIdx i q 0).val = (q ⟨0, by decide⟩).val :=
  dot_S5000x128_S128x1_S5000x1_1_0_0_1_n_n.rhsIdx_val_of_single rfl i q
theorem col_rhs_col (i : S5000x1.Idx) (q : dot_S5000x128_S128x1_S5000x1_1_0_0_1_n_n.contr.Idx) : (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A 5000 × 128 by 128 × 1 product into a zero accumulator, at entry `p`. -/
theorem col_entry {φ₁ φ₂ : FTy} (l : FVec Ideal S5000x128 φ₁) (r : FVec Ideal S128x1 φ₂) (p : Fin 5000) :
    FloatOps.matmul dot_S5000x128_S128x1_S5000x1_1_0_0_1_n_n none l r (constant (F := Ideal) S5000x1 .f32 0x00000000#32) (ix2 p 0)
      = ∑ k : Fin 128, l (ix2 p k) * r (ix2 k 0) := by
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p 0) ((ValueIdx.contrEquiv1 dot_S5000x128_S128x1_S5000x1_1_0_0_1_n_n 128 rfl rfl).symm k) = ix2 p k := funext fun a => Fin.ext (by
    match a with
    | ⟨0, _⟩ => exact col_lhs_row _ _
    | ⟨1, _⟩ => exact (col_lhs_k _ _).trans hk)
  have er : dot_S5000x128_S128x1_S5000x1_1_0_0_1_n_n.rhsIdx (ix2 p 0) ((ValueIdx.contrEquiv1 dot_S5000x128_S128x1_S5000x1_1_0_0_1_n_n 128 rfl rfl).symm k) = ix2 k 0 := funext fun a => Fin.ext (by
    match a with
    | ⟨0, _⟩ => exact (col_rhs_k _ _).trans hk
    | ⟨1, _⟩ => exact col_rhs_col _ _)
  rw [el, er]

/-- The bias row broadcast over the block's rows. -/
theorem bias_row_entry (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- A head's one bias broadcast over the block's rows. -/
theorem bias_one_entry (b : FVec Ideal S1x1 .f32) (p : Fin 5000) :
    broadcastTo S5000x1 b broadcasts_S1x1_S5000x1 (ix2 p 0) = b (ix2 0 0) :=
  broadcastTo_apply b broadcasts_S1x1_S5000x1 (ix2 p 0) (ix2 0 0) (fun a => by
    match a with
    | ⟨0, _⟩ => rfl
    | ⟨1, _⟩ => rfl)

/-! ## The body's values, entry by entry -/

/-- The hidden block (never stored): the layer's formula on row `p` of the staged blocks. -/
theorem hidden_entry (x0 x1 : Vec Ideal S5000x128 .f32) (x2 x4 : Vec Ideal S128x128 .f32) (x3 : Vec Ideal S1x128 .f32)
    (p : Fin 5000) (q : Fin 128) :
    k1_pay2 x0 x1 x2 x4 x3 (ix2 p q)
      = max (((∑ k : Fin 128, x0 (ix2 p k) * x2 (ix2 k q)) + (∑ k : Fin 128, x1 (ix2 p k) * x4 (ix2 k q))) + x3 (ix2 0 q)) Spec.zero := by
  unfold k1_pay2
  simp only [shapeCast_self]
  show max ((FloatOps.matmul dot_S5000x128_S128x128_S5000x128_1_0_0_1_n_n none x0 x2 (constant (F := Ideal) S5000x128 .f32 0x00000000#32) (ix2 p q)
      + FloatOps.matmul dot_S5000x128_S128x128_S5000x128_1_0_0_1_n_n none x1 x4 (constant (F := Ideal) S5000x128 .f32 0x00000000#32) (ix2 p q))
      + broadcastTo S5000x128 x3 broadcasts_S1x128_S5000x128 (ix2 p q)) Spec.zero = _
  rw [feat_entry, feat_entry, bias_row_entry]

/-- The prediction block at entry `p`. -/
theorem pred_entry (x0 x1 : Vec Ideal S5000x128 .f32) (x2 x4 : Vec Ideal S128x128 .f32) (x3 : Vec Ideal S1x128 .f32)
    (x5 : Vec Ideal S128x1 .f32) (x6 : Vec Ideal S1x1 .f32) (p : Fin 5000) :
    k1_pay3 x0 x1 x2 x4 x3 x5 x6 (ix2 p 0)
      = (∑ k : Fin 128, k1_pay2 x0 x1 x2 x4 x3 (ix2 p k) * x5 (ix2 k 0)) + x6 (ix2 0 0) := by
  unfold k1_pay3
  simp only [shapeCast_self]
  show FloatOps.matmul dot_S5000x128_S128x1_S5000x1_1_0_0_1_n_n none (k1_pay2 x0 x1 x2 x4 x3) x5 (constant (F := Ideal) S5000x1 .f32 0x00000000#32) (ix2 p 0)
      + broadcastTo S5000x1 x6 broadcasts_S1x1_S5000x1 (ix2 p 0) = _
  rw [col_entry, bias_one_entry]

/-- The gate block at entry `p`. -/
theorem gate_entry (x0 x1 : Vec Ideal S5000x128 .f32) (x2 x4 : Vec Ideal S128x128 .f32) (x3 : Vec Ideal S1x128 .f32)
    (x7 : Vec Ideal S128x1 .f32) (x8 : Vec Ideal S1x1 .f32) (p : Fin 5000) :
    k1_pay4 x0 x1 x2 x4 x3 x7 x8 (ix2 p 0)
      = Ideal.logistic ((∑ k : Fin 128, k1_pay2 x0 x1 x2 x4 x3 (ix2 p k) * x7 (ix2 k 0)) + x8 (ix2 0 0)) := by
  unfold k1_pay4
  simp only [shapeCast_self]
  show Ideal.logistic (FloatOps.matmul dot_S5000x128_S128x1_S5000x1_1_0_0_1_n_n none (k1_pay2 x0 x1 x2 x4 x3) x7 (constant (F := Ideal) S5000x1 .f32 0x00000000#32) (ix2 p 0)
      + broadcastTo S5000x1 x8 broadcasts_S1x1_S5000x1 (ix2 p 0)) = _
  rw [col_entry, bias_one_entry]

/-! ## The staged blocks as rows of whole arrays -/

section Rows
variable (x0 x1 : Vec Ideal S5000x128 .f32) (x2 x4 : Vec Ideal S128x128 .f32) (x3 : Vec Ideal S1x128 .f32)
  (x5 x7 : Vec Ideal S128x1 .f32) (x6 x8 : Vec Ideal S1x1 .f32)
  (A X : Spec.Feat.Idx → EReal) (Wl Wr : Spec.Mat.Idx → EReal) (b : Fin 128 → EReal)
  (Wp Wd : Spec.Col.Idx → EReal) (bp bd : EReal) (p : Fin 5000) (r : Fin 100000)

/-- The hidden block's row `p` is row `r` of the layer of the whole arrays. -/
theorem hidden_of_rows
    (hA : ∀ k : Fin 128, x0 (ix2 p k) = A (ix2 r k)) (hX : ∀ k : Fin 128, x1 (ix2 p k) = X (ix2 r k))
    (hWl : ∀ k q : Fin 128, x2 (ix2 k q) = Wl (ix2 k q)) (hWr : ∀ k q : Fin 128, x4 (ix2 k q) = Wr (ix2 k q))
    (hb : ∀ q : Fin 128, x3 (ix2 0 q) = b q) (q : Fin 128) :
    k1_pay2 x0 x1 x2 x4 x3 (ix2 p q) = Spec.layer A X Wl b Wr (ix2 r q) := by
  rw [hidden_entry]
  show _ = max (((∑ k : Fin 128, A (ix2 r k) * Wl (ix2 k q)) + (∑ k : Fin 128, X (ix2 r k) * Wr (ix2 k q))) + b q) Spec.zero
  simp only [hA, hX, hWl, hWr, hb]

/-- Entry `p` of the first stored block is the first result at node `r`. -/
theorem diff_of_rows
    (hA : ∀ k : Fin 128, x0 (ix2 p k) = A (ix2 r k)) (hX : ∀ k : Fin 128, x1 (ix2 p k) = X (ix2 r k))
    (hWl : ∀ k q : Fin 128, x2 (ix2 k q) = Wl (ix2 k q)) (hWr : ∀ k q : Fin 128, x4 (ix2 k q) = Wr (ix2 k q))
    (hb : ∀ q : Fin 128, x3 (ix2 0 q) = b q)
    (hWp : ∀ k : Fin 128, x5 (ix2 k 0) = Wp (ix2 k 0)) (hbp : x6 (ix2 0 0) = bp)
    (hWd : ∀ k : Fin 128, x7 (ix2 k 0) = Wd (ix2 k 0)) (hbd : x8 (ix2 0 0) = bd) :
    k1_pay5 x0 x1 x2 x4 x3 x5 x7 x6 x8 (ix2 p 0)
      = Spec.pred (Spec.layer A X Wl b Wr) Wp bp r - Spec.gate (Spec.layer A X Wl b Wr) Wd bd r := by
  have hH : ∀ k : Fin 128, k1_pay2 x0 x1 x2 x4 x3 (ix2 p k) = Spec.layer A X Wl b Wr (ix2 r k) :=
    fun k => hidden_of_rows x0 x1 x2 x4 x3 A X Wl Wr b p r hA hX hWl hWr hb k
  unfold k1_pay5
  show k1_pay3 x0 x1 x2 x4 x3 x5 x6 (ix2 p 0) - k1_pay4 x0 x1 x2 x4 x3 x7 x8 (ix2 p 0) = _
  rw [pred_entry, gate_entry]
  unfold Spec.pred Spec.gate Spec.headDot
  simp only [hH, hWp, hbp, hWd, hbd]

/-- Entry `p` of the second stored block is the second result at node `r`. -/
theorem sum_of_rows
    (hA : ∀ k : Fin 128, x0 (ix2 p k) = A (ix2 r k)) (hX : ∀ k : Fin 128, x1 (ix2 p k) = X (ix2 r k))
    (hWl : ∀ k q : Fin 128, x2 (ix2 k q) = Wl (ix2 k q)) (hWr : ∀ k q : Fin 128, x4 (ix2 k q) = Wr (ix2 k q))
    (hb : ∀ q : Fin 128, x3 (ix2 0 q) = b q)
    (hWp : ∀ k : Fin 128, x5 (ix2 k 0) = Wp (ix2 k 0)) (hbp : x6 (ix2 0 0) = bp)
    (hWd : ∀ k : Fin 128, x7 (ix2 k 0) = Wd (ix2 k 0)) (hbd : x8 (ix2 0 0) = bd) :
    k1_pay1 (k1_pay3 x0 x1 x2 x4 x3 x5 x6) (k1_pay4 x0 x1 x2 x4 x3 x7 x8) (ix2 p 0)
      = Spec.pred (Spec.layer A X Wl b Wr) Wp bp r + Spec.gate (Spec.layer A X Wl b Wr) Wd bd r := by
  have hH : ∀ k : Fin 128, k1_pay2 x0 x1 x2 x4 x3 (ix2 p k) = Spec.layer A X Wl b Wr (ix2 r k) :=
    fun k => hidden_of_rows x0 x1 x2 x4 x3 A X Wl Wr b p r hA hX hWl hWr hb k
  unfold k1_pay1
  show k1_pay3 x0 x1 x2 x4 x3 x5 x6 (ix2 p 0) + k1_pay4 x0 x1 x2 x4 x3 x7 x8 (ix2 p 0) = _
  rw [pred_entry, gate_entry]
  unfold Spec.pred Spec.gate Spec.headDot
  simp only [hH, hWp, hbp, hWd, hbd]

end Rows

/-! ## From the blocks to the arrays, at any entry contents `V` -/

section Region
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid of 20: the two row-blocked inputs and the two outputs sit at block row
    `t`, every weight and bias at the one block it has. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The second layer's hidden features of the arrays the region is entered with. -/
abbrev hidden (c : Dev nD) : Spec.Feat.Idx → EReal :=
  Spec.layer (V c main_v41) (V c main_v23) (V c main_arg5) (fun j => V c main_v42 (ix2 0 j)) (V c main_arg7)

/-- The first result of the arrays the region is entered with. -/
abbrev resultDiff (c : Dev nD) : Spec.PerNode.Idx → EReal :=
  Spec.outDiff (hidden V c) (V c main_arg8) (V c main_v43 (ix2 0 0)) (V c main_arg10) (V c main_v44 (ix2 0 0))

/-- The second result of the arrays the region is entered with. -/
abbrev resultSum (c : Dev nD) : Spec.PerNode.Idx → EReal :=
  Spec.outSum (hidden V c) (V c main_arg8) (V c main_v43 (ix2 0 0)) (V c main_arg10) (V c main_v44 (ix2 0 0))

/-- Point `t`'s nine staged blocks, read where the body reads them, are row `5000·t + p` of the two row-blocked
    arrays and the whole of every weight and bias. -/
theorem staged (c : Dev nD) (t : Fin cfg1.N) (p : Fin 5000) (r : Fin 100000) (hr : r.val = t.val * 5000 + p.val) :
    (∀ k : Fin 128, iblk1 V c 0 t (ix2 p k) = V c main_v41 (ix2 r k))
    ∧ (∀ k : Fin 128, iblk1 V c 1 t (ix2 p k) = V c main_v23 (ix2 r k))
    ∧ (∀ k q : Fin 128, iblk1 V c 2 t (ix2 k q) = V c main_arg5 (ix2 k q))
    ∧ (∀ k q : Fin 128, iblk1 V c 4 t (ix2 k q) = V c main_arg7 (ix2 k q))
    ∧ (∀ q : Fin 128, iblk1 V c 3 t (ix2 0 q) = V c main_v42 (ix2 0 q))
    ∧ (∀ k : Fin 128, iblk1 V c 5 t (ix2 k 0) = V c main_arg8 (ix2 k 0))
    ∧ iblk1 V c 6 t (ix2 0 0) = V c main_v43 (ix2 0 0)
    ∧ (∀ k : Fin 128, iblk1 V c 7 t (ix2 k 0) = V c main_arg10 (ix2 k 0))
    ∧ iblk1 V c 8 t (ix2 0 0) = V c main_v44 (ix2 0 0) := by
  obtain ⟨a0, a1, b0, b1, c0, c1, d0, d1, e0, e1, f0, f1, g0, g1, h0, h1, i0, i1, -, -, -, -⟩ := block_indices t
  refine ⟨fun k => ?_, fun k => ?_, fun k q => ?_, fun k q => ?_, fun q => ?_, fun k => ?_, ?_, fun k => ?_, ?_⟩
  · show V c main_v41 (((cfg1.win 0).blk t).view.emb (ix2 p k)) = _
    refine congrArg (V c main_v41) (funext fun a => Fin.ext ?_)
    match a with
    | ⟨0, _⟩ => show win1_0.index t (0 : Fin 2) * 5000 + 1 * p.val = r.val; omega
    | ⟨1, _⟩ => show win1_0.index t (1 : Fin 2) * 128 + 1 * k.val = k.val; omega
  · show V c main_v23 (((cfg1.win 1).blk t).view.emb (ix2 p k)) = _
    refine congrArg (V c main_v23) (funext fun a => Fin.ext ?_)
    match a with
    | ⟨0, _⟩ => show win1_1.index t (0 : Fin 2) * 5000 + 1 * p.val = r.val; omega
    | ⟨1, _⟩ => show win1_1.index t (1 : Fin 2) * 128 + 1 * k.val = k.val; omega
  · show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show V c main_arg7 (((cfg1.win 4).blk t).view.emb (ix2 k q)) = _
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · show V c main_v42 (((cfg1.win 3).blk t).view.emb (ix2 0 q)) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show V c main_arg8 (((cfg1.win 5).blk t).view.emb (ix2 k 0)) = _
    refine congrArg (V c main_arg8) (funext fun a => Fin.ext ?_)
    match a with
    | ⟨0, _⟩ => show win1_5.index t (0 : Fin 2) * 128 + 1 * k.val = k.val; omega
    | ⟨1, _⟩ => show win1_5.index t (1 : Fin 2) * 1 + 1 * 0 = 0; omega
  · show V c main_v43 (((cfg1.win 6).blk t).view.emb (ix2 0 0)) = _
    refine congrArg (V c main_v43) (funext fun a => Fin.ext ?_)
    match a with
    | ⟨0, _⟩ => show win1_6.index t (0 : Fin 2) * 1 + 1 * 0 = 0; omega
    | ⟨1, _⟩ => show win1_6.index t (1 : Fin 2) * 1 + 1 * 0 = 0; omega
  · show V c main_arg10 (((cfg1.win 7).blk t).view.emb (ix2 k 0)) = _
    refine congrArg (V c main_arg10) (funext fun a => Fin.ext ?_)
    match a with
    | ⟨0, _⟩ => show win1_7.index t (0 : Fin 2) * 128 + 1 * k.val = k.val; omega
    | ⟨1, _⟩ => show win1_7.index t (1 : Fin 2) * 1 + 1 * 0 = 0; omega
  · show V c main_v44 (((cfg1.win 8).blk t).view.emb (ix2 0 0)) = _
    refine congrArg (V c main_v44) (funext fun a => Fin.ext ?_)
    match a with
    | ⟨0, _⟩ => show win1_8.index t (0 : Fin 2) * 1 + 1 * 0 = 0; omega
    | ⟨1, _⟩ => show win1_8.index t (1 : Fin 2) * 1 + 1 * 0 = 0; omega

/-- A column index is its row and the one column. -/
theorem col_index (y : S5000x1.Idx) : y = ix2 (y 0) 0 :=
  funext fun a => Fin.ext (by
    match a with
    | ⟨0, _⟩ => rfl
    | ⟨1, _⟩ => have h : (y 1).val < 1 := (y 1).isLt; show (y 1).val = 0; omega)

/-- Entry `y` of the first block point `t` stores is the first result at the node the block puts `y` at. -/
theorem block_entry_diff (c : Dev nD) (t : Fin cfg1.N) (y : S5000x1.Idx) :
    k1_pay5 (iblk1 V c 0 t) (iblk1 V c 1 t) (iblk1 V c 2 t) (iblk1 V c 4 t) (iblk1 V c 3 t) (iblk1 V c 5 t) (iblk1 V c 7 t) (iblk1 V c 6 t) (iblk1 V c 8 t) y
      = resultDiff V c (((cfg1.win 9).blk t).view.emb y) := by
  have hr : ((((cfg1.win 9).blk t).view.emb y) 0).val = t.val * 5000 + (y 0).val := by
    have f := (block_indices t).2.2.2.2.2.2.2.2.2.2.2.2.2.2.2.2.2.2.1
    show win1_9.index t (0 : Fin 2) * 5000 + 1 * (y 0).val = _; omega
  obtain ⟨sA, sX, sWl, sWr, sb, sWp, sbp, sWd, sbd⟩ := staged V c t (y 0) ((((cfg1.win 9).blk t).view.emb y) 0) hr
  exact (congrArg (k1_pay5 (iblk1 V c 0 t) (iblk1 V c 1 t) (iblk1 V c 2 t) (iblk1 V c 4 t) (iblk1 V c 3 t) (iblk1 V c 5 t) (iblk1 V c 7 t) (iblk1 V c 6 t) (iblk1 V c 8 t)) (col_index y)).trans
    (diff_of_rows (iblk1 V c 0 t) (iblk1 V c 1 t) (iblk1 V c 2 t) (iblk1 V c 4 t) (iblk1 V c 3 t) (iblk1 V c 5 t) (iblk1 V c 7 t) (iblk1 V c 6 t) (iblk1 V c 8 t)
      (V c main_v41) (V c main_v23) (V c main_arg5) (V c main_arg7) (fun j => V c main_v42 (ix2 0 j)) (V c main_arg8) (V c main_arg10)
      (V c main_v43 (ix2 0 0)) (V c main_v44 (ix2 0 0)) (y 0) ((((cfg1.win 9).blk t).view.emb y) 0)
      sA sX sWl sWr sb sWp sbp sWd sbd)

/-- Entry `y` of the second block point `t` stores is the second result at the node the block puts `y` at. -/
theorem block_entry_sum (c : Dev nD) (t : Fin cfg1.N) (y : S5000x1.Idx) :
    k1_pay1 (k1_pay3 (iblk1 V c 0 t) (iblk1 V c 1 t) (iblk1 V c 2 t) (iblk1 V c 4 t) (iblk1 V c 3 t) (iblk1 V c 5 t) (iblk1 V c 6 t))
        (k1_pay4 (iblk1 V c 0 t) (iblk1 V c 1 t) (iblk1 V c 2 t) (iblk1 V c 4 t) (iblk1 V c 3 t) (iblk1 V c 7 t) (iblk1 V c 8 t)) y
      = resultSum V c (((cfg1.win 10).blk t).view.emb y) := by
  have hr : ((((cfg1.win 10).blk t).view.emb y) 0).val = t.val * 5000 + (y 0).val := by
    have f := (block_indices t).2.2.2.2.2.2.2.2.2.2.2.2.2.2.2.2.2.2.2.2.1
    show win1_10.index t (0 : Fin 2) * 5000 + 1 * (y 0).val = _; omega
  obtain ⟨sA, sX, sWl, sWr, sb, sWp, sbp, sWd, sbd⟩ := staged V c t (y 0) ((((cfg1.win 10).blk t).view.emb y) 0) hr
  exact (congrArg (k1_pay1 (k1_pay3 (iblk1 V c 0 t) (iblk1 V c 1 t) (iblk1 V c 2 t) (iblk1 V c 4 t) (iblk1 V c 3 t) (iblk1 V c 5 t) (iblk1 V c 6 t))
        (k1_pay4 (iblk1 V c 0 t) (iblk1 V c 1 t) (iblk1 V c 2 t) (iblk1 V c 4 t) (iblk1 V c 3 t) (iblk1 V c 7 t) (iblk1 V c 8 t))) (col_index y)).trans
    (sum_of_rows (iblk1 V c 0 t) (iblk1 V c 1 t) (iblk1 V c 2 t) (iblk1 V c 4 t) (iblk1 V c 3 t) (iblk1 V c 5 t) (iblk1 V c 7 t) (iblk1 V c 6 t) (iblk1 V c 8 t)
      (V c main_v41) (V c main_v23) (V c main_arg5) (V c main_arg7) (fun j => V c main_v42 (ix2 0 j)) (V c main_arg8) (V c main_arg10)
      (V c main_v43 (ix2 0 0)) (V c main_v44 (ix2 0 0)) (y 0) ((((cfg1.win 10).blk t).view.emb y) 0)
      sA sX sWl sWr sb sWp sbp sWd sbd)

/-- What point `t` writes back to the first result is block `t` of it. -/
theorem flushed_diff (c : Dev nD) (t : Fin cfg1.N) :
    (dat1 V c).flushed 9 t = ((cfg1.win 9).blk t).view.read (Elt Ideal) (resultDiff V c) := by
  show (cfg1.win 9).cut (grid1.coords t) ((dat1 V c).after 9 t) = _
  rw [after1_9]
  unfold out1_9
  rw [View.canon_unit_zero origin]
  simp only [View.ld_unit_zero (S := S5000x128) origin, View.ld_unit_zero (S := S128x128) origin, View.ld_unit_zero (S := S1x128) origin,
    View.ld_unit_zero (S := S128x1) origin, View.ld_unit_zero (S := S1x1) origin]
  funext j
  exact block_entry_diff V c t j

/-- What point `t` writes back to the second result is block `t` of it. -/
theorem flushed_sum (c : Dev nD) (t : Fin cfg1.N) :
    (dat1 V c).flushed 10 t = ((cfg1.win 10).blk t).view.read (Elt Ideal) (resultSum V c) := by
  show (cfg1.win 10).cut (grid1.coords t) ((dat1 V c).after 10 t) = _
  rw [after1_10]
  unfold out1_10
  rw [View.canon_unit_zero origin]
  simp only [View.ld_unit_zero (S := S5000x128) origin, View.ld_unit_zero (S := S128x128) origin, View.ld_unit_zero (S := S1x128) origin,
    View.ld_unit_zero (S := S128x1) origin, View.ld_unit_zero (S := S1x1) origin]
  funext j
  exact block_entry_sum V c t j

theorem mem_block_diff (t : Fin cfg1.N) (i : S100000x1.Idx) :
    i ∈ ((cfg1.win 9).blk t).view.set ↔ ∀ a : Fin 2, win1_9.index t a * S5000x1.size a ≤ (i a).val ∧ (i a).val < win1_9.index t a * S5000x1.size a + S5000x1.size a := by
  show i ∈ ((View.whole main_v45_0).slice (win1_9.rect t)).set ↔ _
  rw [View.set_slice_whole, Rect.mem_set_unit]
  exact Iff.rfl

theorem mem_block_sum (t : Fin cfg1.N) (i : S100000x1.Idx) :
    i ∈ ((cfg1.win 10).blk t).view.set ↔ ∀ a : Fin 2, win1_10.index t a * S5000x1.size a ≤ (i a).val ∧ (i a).val < win1_10.index t a * S5000x1.size a + S5000x1.size a := by
  show i ∈ ((View.whole main_v45_1).slice (win1_10.rect t)).set ↔ _
  rw [View.set_slice_whole, Rect.mem_set_unit]
  exact Iff.rfl

/-- Node `r` of the first result is written by point `r / 5000`. -/
theorem covered_diff (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hN : cfg1.N = 20 := N_1
  have ht : (i 0).val / 5000 < cfg1.N := by rw [hN]; omega
  have f := (block_indices ⟨(i 0).val / 5000, ht⟩).2.2.2.2.2.2.2.2.2.2.2.2.2.2.2.2.2.2
  have f0 : win1_9.index ⟨(i 0).val / 5000, ht⟩ (0 : Fin 2) = (i 0).val / 5000 := f.1
  have f1 : win1_9.index ⟨(i 0).val / 5000, ht⟩ (1 : Fin 2) = 0 := f.2.1
  refine ⟨⟨(i 0).val / 5000, ht⟩, flush1_9 _, ?_⟩
  rw [mem_block_diff]
  intro a
  match a with
  | ⟨0, _⟩ => show win1_9.index ⟨(i 0).val / 5000, ht⟩ (0 : Fin 2) * 5000 ≤ (i 0).val ∧ (i 0).val < win1_9.index ⟨(i 0).val / 5000, ht⟩ (0 : Fin 2) * 5000 + 5000; omega
  | ⟨1, _⟩ => show win1_9.index ⟨(i 0).val / 5000, ht⟩ (1 : Fin 2) * 1 ≤ (i 1).val ∧ (i 1).val < win1_9.index ⟨(i 0).val / 5000, ht⟩ (1 : Fin 2) * 1 + 1; omega

/-- Node `r` of the second result is written by point `r / 5000`. -/
theorem covered_sum (i : S100000x1.Idx) :
    ∃ t : Fin cfg1.N, (cfg1.win 10).flush t = true ∧ i ∈ ((cfg1.win 10).blk t).view.set := by
  have hi0 : (i 0).val < 100000 := (i 0).isLt
  have hi1 : (i 1).val < 1 := (i 1).isLt
  have hN : cfg1.N = 20 := N_1
  have ht : (i 0).val / 5000 < cfg1.N := by rw [hN]; omega
  have f := (block_indices ⟨(i 0).val / 5000, ht⟩).2.2.2.2.2.2.2.2.2.2.2.2.2.2.2.2.2.2.2.2
  have f0 : win1_10.index ⟨(i 0).val / 5000, ht⟩ (0 : Fin 2) = (i 0).val / 5000 := f.1
  have f1 : win1_10.index ⟨(i 0).val / 5000, ht⟩ (1 : Fin 2) = 0 := f.2
  refine ⟨⟨(i 0).val / 5000, ht⟩, flush1_10 _, ?_⟩
  rw [mem_block_sum]
  intro a
  match a with
  | ⟨0, _⟩ => show win1_10.index ⟨(i 0).val / 5000, ht⟩ (0 : Fin 2) * 5000 ≤ (i 0).val ∧ (i 0).val < win1_10.index ⟨(i 0).val / 5000, ht⟩ (0 : Fin 2) * 5000 + 5000; omega
  | ⟨1, _⟩ => show win1_10.index ⟨(i 0).val / 5000, ht⟩ (1 : Fin 2) * 1 ≤ (i 1).val ∧ (i 1).val < win1_10.index ⟨(i 0).val / 5000, ht⟩ (1 : Fin 2) * 1 + 1; omega

/-- After the region its first result array is the first result of the arrays it was entered with. -/
theorem final_diff (c : Dev nD) : (dat1 V c).arrAt 9 cfg1.N = resultDiff V c :=
  (dat1 V c).arrAt_eq_of_cover 9 (resultDiff V c) (fun t _ => flushed_diff V c t) covered_diff

/-- After the region its second result array is the second result of the arrays it was entered with. -/
theorem final_sum (c : Dev nD) : (dat1 V c).arrAt 10 cfg1.N = resultSum V c :=
  (dat1 V c).arrAt_eq_of_cover 10 (resultSum V c) (fun t _ => flushed_sum V c t) covered_sum

end Region

end Cert.KernelIdeal.Layer2

end
-- ==== Proof.NamedRun.lean ====
/-
  The idealized kernel's run with every unscoped buffer named.

  @main is eight segments: three stretches of host operations, the first pallas_call, three more stretches, the
  second pallas_call.  The generated frame threads the TensorCore's buffer contents through those segments as a
  fold `W0 … W8` and keeps, of the last contents, only that the arguments are unchanged.  The value proof needs
  more: the two result arrays at the end of the run.  So the same launch over the same segments is stated here
  with the whole last valuation in its post: every unscoped buffer of a final state holds `W8` of it.
-/
import proofs.«179776_j11914239279506_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer
    of every core holds the last boundary's contents `W8`: the second region's arrays at what its write-backs
    leave, every other buffer as the second region found it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- A TensorCore reference that is not scoped is among the unscoped buffers. -/
theorem mem_unscoped (b : Ref sig .tc) (h : ¬ (Proc.devRef .tc b : DevRef τ sig).isScoped) :
    Proc.devRef .tc b ∈ Pipeline.ucRefs τ sig := mem_uc b h

end Cert.KernelIdeal.Named

end
-- ==== Proof.Chain.lean ====
/-
  The run of the idealized kernel, read: its two result arrays are the specification's two results of the
  argument arrays.

  The first region is entered with the mean aggregation of the node features (host operations), the node
  features, the first layer's weights and the first bias as a row; so it leaves the first layer's hidden features.
  The second region is entered with the mean aggregation of those (the same host operations, from the same edge
  list), those hidden features themselves, and the remaining weights and biases; so it leaves the two results.
-/
import proofs.«179776_j11914239279506_1_alg».proof.Proof.HostPre
import proofs.«179776_j11914239279506_1_alg».proof.Proof.HostMid
import proofs.«179776_j11914239279506_1_alg».proof.Proof.RefSide
import proofs.«179776_j11914239279506_1_alg».proof.Proof.Block0
import proofs.«179776_j11914239279506_1_alg».proof.Proof.Block1
import proofs.«179776_j11914239279506_1_alg».proof.Proof.NamedRun

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.ReferenceIdeal.RefValue (meanAgg hidden1 hidden2 specDiff specSum)

/-- A bias vector reshaped to a row, read at the row's entry `j`. -/
theorem row_of_vec (b : S128.Idx → EReal) (j : Fin 128) :
    shapeCast S1x128 b shapeCasts_S128_S1x128 (ix2 0 j) = b (ix1 j) :=
  shapeCast_apply b shapeCasts_S128_S1x128 (ix2 0 j) (ix1 j) (by
    rw [Shape.rowMajor_val_one, Shape.rowMajor_val_two]; show j.val = 0 * 128 + j.val; omega)

/-- A one-entry bias reshaped to a 1 × 1 array, read at its entry. -/
theorem one_of_vec (b : S1.Idx → EReal) :
    shapeCast S1x1 b shapeCasts_S1_S1x1 (ix2 0 0) = b (ix1 0) :=
  shapeCast_apply b shapeCasts_S1_S1x1 (ix2 0 0) (ix1 0) (by
    rw [Shape.rowMajor_val_one, Shape.rowMajor_val_two]; rfl)

/-- A layer depends on its bias only through the bias's entries. -/
theorem layer_congr (A X : Spec.Feat.Idx → EReal) (Wl Wr : Spec.Mat.Idx → EReal) (b b' : Fin 128 → EReal)
    (h : ∀ j, b j = b' j) : Spec.layer A X Wl b Wr = Spec.layer A X Wl b' Wr :=
  congrArg (fun v => Spec.layer A X Wl v Wr) (funext h)

theorem outDiff_congr (H H' : Spec.Feat.Idx → EReal) (Wp Wd : Spec.Col.Idx → EReal) (bp bp' bd bd' : EReal)
    (hH : H = H') (hp : bp = bp') (hd : bd = bd') : Spec.outDiff H Wp bp Wd bd = Spec.outDiff H' Wp bp' Wd bd' := by
  subst hH hp hd; rfl

theorem outSum_congr (H H' : Spec.Feat.Idx → EReal) (Wp Wd : Spec.Col.Idx → EReal) (bp bp' bd bd' : EReal)
    (hH : H = H') (hp : bp = bp') (hd : bd = bd') : Spec.outSum H Wp bp Wd bd = Spec.outSum H' Wp bp' Wd bd' := by
  subst hH hp hd; rfl

variable (m : (ℓ : Loc nD τ sig) → Buf (Elt Ideal) ℓ) (ρ : Dev nD → PrngReg)

/-! ## The first region -/

/-- After the first region its result array holds the first layer's hidden features of the arguments. -/
theorem first_result (c : Dev nD) :
    W4 m ρ c (Proc.devRef .tc main_v23) = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((Layer1.final (V3 m ρ) c).trans ?_)
  show Spec.layer (pre (W0 m ρ c) (Proc.devRef .tc main_v21)) (pre (W0 m ρ c) (Proc.devRef .tc main_arg0)) (pre (W0 m ρ c) (Proc.devRef .tc main_arg2))
      (fun j => pre (W0 m ρ c) (Proc.devRef .tc main_v22) (ix2 0 j)) (pre (W0 m ρ c) (Proc.devRef .tc main_arg4)) = _
  rw [pre_agg, pre_main_arg0, pre_main_arg2, pre_main_arg4, pre_bias]
  exact layer_congr _ _ _ _ _ _ (fun j => row_of_vec _ j)

/-! ## What the second region is entered with -/

/-- A buffer the first region does not touch, and no host stretch before it writes, holds its launch contents
    when the second stretch of host operations begins. -/
theorem held_arg5 (c : Dev nD) : W4 m ρ c (Proc.devRef .tc main_arg5) = (m ((c : Thread nD τ).loc main_arg5)) :=
  (W4_of_ne m ρ c main_arg5 (by decide)).trans (pre_main_arg5 (W0 m ρ c))
theorem held_arg6 (c : Dev nD) : W4 m ρ c (Proc.devRef .tc main_arg6) = (m ((c : Thread nD τ).loc main_arg6)) :=
  (W4_of_ne m ρ c main_arg6 (by decide)).trans (pre_main_arg6 (W0 m ρ c))
theorem held_arg7 (c : Dev nD) : W4 m ρ c (Proc.devRef .tc main_arg7) = (m ((c : Thread nD τ).loc main_arg7)) :=
  (W4_of_ne m ρ c main_arg7 (by decide)).trans (pre_main_arg7 (W0 m ρ c))
theorem held_arg8 (c : Dev nD) : W4 m ρ c (Proc.devRef .tc main_arg8) = (m ((c : Thread nD τ).loc main_arg8)) :=
  (W4_of_ne m ρ c main_arg8 (by decide)).trans (pre_main_arg8 (W0 m ρ c))
theorem held_arg9 (c : Dev nD) : W4 m ρ c (Proc.devRef .tc main_arg9) = (m ((c : Thread nD τ).loc main_arg9)) :=
  (W4_of_ne m ρ c main_arg9 (by decide)).trans (pre_main_arg9 (W0 m ρ c))
theorem held_arg10 (c : Dev nD) : W4 m ρ c (Proc.devRef .tc main_arg10) = (m ((c : Thread nD τ).loc main_arg10)) :=
  (W4_of_ne m ρ c main_arg10 (by decide)).trans (pre_main_arg10 (W0 m ρ c))
theorem held_arg11 (c : Dev nD) : W4 m ρ c (Proc.devRef .tc main_arg11) = (m ((c : Thread nD τ).loc main_arg11)) :=
  (W4_of_ne m ρ c main_arg11 (by decide)).trans (pre_main_arg11 (W0 m ρ c))

/-- The aggregated features the second region stages: the mean aggregation of the first layer's hidden features. -/
theorem second_agg (c : Dev nD) :
    mid (W4 m ρ c) (Proc.devRef .tc main_v41)
      = meanAgg (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  rw [← first_result m ρ c]
  exact mid_agg (W4 m ρ c) (m ((c : Thread nD τ).loc main_arg1))
    ((W4_of_ne m ρ c main_v1 (by decide)).trans (pre_src (W0 m ρ c)))
    ((W4_of_ne m ρ c main_v3 (by decide)).trans (pre_dst (W0 m ρ c)))

/-! ## The second region -/

/-- After the second region its first result array holds the first result of the arguments. -/
theorem last_diff (c : Dev nD) :
    W8 m ρ c (Proc.devRef .tc main_v45_0) = specDiff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 9).trans ((Layer2.final_diff (V7 m ρ) c).trans ?_)
  show Spec.outDiff (Spec.layer (mid (W4 m ρ c) (Proc.devRef .tc main_v41)) (mid (W4 m ρ c) (Proc.devRef .tc main_v23)) (mid (W4 m ρ c) (Proc.devRef .tc main_arg5))
      (fun j => mid (W4 m ρ c) (Proc.devRef .tc main_v42) (ix2 0 j)) (mid (W4 m ρ c) (Proc.devRef .tc main_arg7)))
      (mid (W4 m ρ c) (Proc.devRef .tc main_arg8)) (mid (W4 m ρ c) (Proc.devRef .tc main_v43) (ix2 0 0))
      (mid (W4 m ρ c) (Proc.devRef .tc main_arg10)) (mid (W4 m ρ c) (Proc.devRef .tc main_v44) (ix2 0 0)) = _
  rw [second_agg, mid_main_v23, mid_main_arg5, mid_main_arg7, mid_main_arg8, mid_main_arg10, mid_bias2, mid_biasp, mid_biasd,
    first_result, held_arg5, held_arg6, held_arg7, held_arg8, held_arg9, held_arg10, held_arg11]
  exact outDiff_congr _ _ _ _ _ _ _ _ (layer_congr _ _ _ _ _ _ (fun j => row_of_vec _ j)) (one_of_vec _) (one_of_vec _)

/-- After the second region its second result array holds the second result of the arguments. -/
theorem last_sum (c : Dev nD) :
    W8 m ρ c (Proc.devRef .tc main_v45_1) = specSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 10).trans ((Layer2.final_sum (V7 m ρ) c).trans ?_)
  show Spec.outSum (Spec.layer (mid (W4 m ρ c) (Proc.devRef .tc main_v41)) (mid (W4 m ρ c) (Proc.devRef .tc main_v23)) (mid (W4 m ρ c) (Proc.devRef .tc main_arg5))
      (fun j => mid (W4 m ρ c) (Proc.devRef .tc main_v42) (ix2 0 j)) (mid (W4 m ρ c) (Proc.devRef .tc main_arg7)))
      (mid (W4 m ρ c) (Proc.devRef .tc main_arg8)) (mid (W4 m ρ c) (Proc.devRef .tc main_v43) (ix2 0 0))
      (mid (W4 m ρ c) (Proc.devRef .tc main_arg10)) (mid (W4 m ρ c) (Proc.devRef .tc main_v44) (ix2 0 0)) = _
  rw [second_agg, mid_main_v23, mid_main_arg5, mid_main_arg7, mid_main_arg8, mid_main_arg10, mid_bias2, mid_biasp, mid_biasd,
    first_result, held_arg5, held_arg6, held_arg7, held_arg8, held_arg9, held_arg10, held_arg11]
  exact outSum_congr _ _ _ _ _ _ _ _ (layer_congr _ _ _ _ _ _ (fun j => row_of_vec _ j)) (one_of_vec _) (one_of_vec _)

/-! ## The run -/

/-- Every weakly fair execution of the idealized kernel terminates without a fault, its two result arrays the
    specification's two results of the argument arrays, the arguments unchanged. -/
theorem run : θ_run defs (onTc (τ := τ) (main (F := Ideal))) ⟨m, fun _ => 0, ρ⟩ (fun r => ∀ c : Dev nD,
      r.2.mem ((c.tc : Thread nD τ).loc main_v45_0) = specDiff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v45_1) = specSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v45_0 (by decide))).trans (last_diff m ρ c),
     (h c _ (mem_uc main_v45_1 (by decide))).trans (last_sum m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c)⟩)
    (Cert.KernelIdeal.Named.run_all m ρ)

end Cert.KernelIdeal.Chain

end
-- ==== Proof.lean ====
/-
  Two graph-convolution layers with mean aggregation and two prediction heads on 100000 nodes: the Pallas
  program against its jnp reference, over the extended reals.

  Both programs compute the mean over in-neighbours on the host by the same gather, scatter-add and division.
  The kernel program then runs each layer's dense part — two 128-term products, a bias, a rectifier — in a
  pallas_call over 20 blocks of 5000 nodes, the second call also forming the two heads (two more 128-term
  products, two biases, a logistic) on the block of hidden features it has just computed; the reference does the
  same arithmetic on whole arrays, with the bias added before the node's own term instead of after it, and the
  logistic written out as a quotient.  Addition of extended reals is commutative and associative, and the
  written-out quotient is the logistic there, so the two programs end with equal results; no finiteness of the
  inputs is used.

  Each program terminates from every memory, faults nowhere and leaves its arguments as they were: for the two
  kernel programs that is the imported generated frame, for the reference its run with the results forgotten.
  The idealized kernel is the printed kernel read over the extended reals with no operation rewritten, so the
  list of rewrites to justify is empty.
-/
import proofs.«179776_j11914239279506_1_alg».proof.Defs
import proofs.«179776_j11914239279506_1_alg».proof.Proof.Gen.Kernel
import proofs.«179776_j11914239279506_1_alg».proof.Proof.Gen.Kernel.Skeleton
import proofs.«179776_j11914239279506_1_alg».proof.Proof.Gen.Kernel.Launch
import proofs.«179776_j11914239279506_1_alg».proof.Proof.Gen.Kernel.Points
import proofs.«179776_j11914239279506_1_alg».proof.Proof.Gen.Kernel.Frame
import proofs.«179776_j11914239279506_1_alg».proof.Proof.Gen.KernelIdeal
import proofs.«179776_j11914239279506_1_alg».proof.Proof.Gen.KernelIdeal.Skeleton
import proofs.«179776_j11914239279506_1_alg».proof.Proof.Gen.KernelIdeal.Launch
import proofs.«179776_j11914239279506_1_alg».proof.Proof.Gen.KernelIdeal.Points
import proofs.«179776_j11914239279506_1_alg».proof.Proof.Gen.KernelIdeal.Frame
import proofs.«179776_j11914239279506_1_alg».proof.Proof.Gen.ReferenceIdeal
import proofs.«179776_j11914239279506_1_alg».proof.Proof.Gen.Pre_finite_inputs
import proofs.«179776_j11914239279506_1_alg».proof.Proof.Gen.ReferenceIdeal.Read
import proofs.«179776_j11914239279506_1_alg».proof.Proof.RefSide
import proofs.«179776_j11914239279506_1_alg».proof.Proof.Chain
import Idealize.ShloMosaic.Adequacy
import Idealize.ShloMosaic.Init

noncomputable section

namespace Cert.Proof

open Idealize.ShloMosaic Idealize.SL.Sem
open Cert.ReferenceIdeal.RefValue (specDiff specSum)

/-- From memories agreeing on the arguments, the reference's first result is the specification's first result of
    the kernel's arguments. -/
theorem reference_first (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v68 m' c = specDiff (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨a0, a1, a2, a3, a4, a5, a6, a7, a8, a9, a10, a11⟩ := h
  rw [Cert.ReferenceIdeal.Read.val_main_v68_eq, Cert.ReferenceIdeal.RefValue.ref_diff, a0, a1, a2, a3, a4, a5, a6, a7, a8, a9, a10, a11]

/-- The same for the second result. -/
theorem reference_second (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v69 m' c = specSum (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨a0, a1, a2, a3, a4, a5, a6, a7, a8, a9, a10, a11⟩ := h
  rw [Cert.ReferenceIdeal.Read.val_main_v69_eq, Cert.ReferenceIdeal.RefValue.ref_sum, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  fun m ρ m' ρ' _ hagree =>
    ⟨fun c => specDiff (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
     fun c => specSum (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
     Cert.KernelIdeal.Chain.run m ρ,
     (θ_run Cert.ReferenceIdeal.defs _ _).mono
       (fun _ h c => ⟨(h c).1.trans (reference_first m m' c (hagree c)), (h c).2.1.trans (reference_second m m' c (hagree c)), (h c).2.2⟩)
       (Cert.ReferenceIdeal.Value.run (F := Ideal) m' ρ')⟩⟩

end Cert.Proof

end
